-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S256x2 : Shape := ⟨2, ![256, 2]⟩
abbrev S256x256 : Shape := ⟨2, ![256, 256]⟩
abbrev S3x256 : Shape := ⟨2, ![3, 256]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  bcast_S_S256x2 : S_.BroadcastsInDim S256x2 (![] : Fin 0 → Fin S256x2.rank)
  reducesTo_S256x2_S_d0_1 : S256x2.ReducesTo [0, 1] S_
  bcast_S_S256x256 : S_.BroadcastsInDim S256x256 (![] : Fin 0 → Fin S256x256.rank)
  reducesTo_S256x256_S_d0_1 : S256x256.ReducesTo [0, 1] S_
  bcast_S_S3x256 : S_.BroadcastsInDim S3x256 (![] : Fin 0 → Fin S3x256.rank)
  reducesTo_S3x256_S_d0_1 : S3x256.ReducesTo [0, 1] S_

variable [Facts]

def fn_part2 {F : FTy → Type} [FloatOps F] (main_arg7 : FVec F S256x256 .f32) (main_arg8 : FVec F S3x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S3x256 .f32 := Host.absf main_arg8
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  main_v43

def fn_part1 {F : FTy → Type} [FloatOps F] (main_arg4 : FVec F S256x256 .f32) (main_arg5 : FVec F S256x256 .f32) (main_arg6 : FVec F S256x256 .f32) (main_arg7 : FVec F S256x256 .f32) (main_arg8 : FVec F S3x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S131072x2 .f32) (main_arg1 : FVec F S256x2 .f32) (main_arg2 : FVec F S256x256 .f32) (main_arg3 : FVec F S256x256 .f32) (main_arg4 : FVec F S256x256 .f32) (main_arg5 : FVec F S256x256 .f32) (main_arg6 : FVec F S256x256 .f32) (main_arg7 : FVec F S256x256 .f32) (main_arg8 : FVec F S3x256 .f32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S256x2 .f32 := Host.absf main_arg1
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S131072x2 : Shape := ⟨2, ![131072, 2]⟩
abbrev S256x2 : Shape := ⟨2, ![256, 2]⟩
abbrev S256x256 : Shape := ⟨2, ![256, 256]⟩
abbrev S3x256 : Shape := ⟨2, ![3, 256]⟩
abbrev S2x256 : Shape := ⟨2, ![2, 256]⟩
abbrev S131072x256 : Shape := ⟨2, ![131072, 256]⟩
abbrev S_ : Shape := ⟨0, ![]⟩
abbrev S256x3 : Shape := ⟨2, ![256, 3]⟩
abbrev S256x128 : Shape := ⟨2, ![256, 128]⟩
abbrev S131072x128 : Shape := ⟨2, ![131072, 128]⟩
abbrev S8192x256 : Shape := ⟨2, ![8192, 256]⟩
abbrev S8192x128 : Shape := ⟨2, ![8192, 128]⟩
abbrev S131072x3 : Shape := ⟨2, ![131072, 3]⟩

abbrev nBuf : Space → Nat
  | .hbm => 34
  | .vmem => 11
  | .smem => 0
  | _ => 0

abbrev bufTy : (tb : Table) → Fin (tcTables nBuf tb) → BufTy
  | .hbm, ⟨0, _⟩ => ⟨S131072x2, .f32⟩
  | .hbm, ⟨1, _⟩ => ⟨S256x2, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S3x256, .f32⟩
  | .hbm, ⟨9, _⟩ => ⟨S2x256, .f32⟩
  | .hbm, ⟨10, _⟩ => ⟨S131072x256, .f32⟩
  | .hbm, ⟨11, _⟩ => ⟨S_, .f32⟩
  | .hbm, ⟨12, _⟩ => ⟨S131072x256, .f32⟩
  | .hbm, ⟨13, _⟩ => ⟨S131072x256, .f32⟩
  | .hbm, ⟨14, _⟩ => ⟨S131072x256, .bf16⟩
  | .hbm, ⟨15, _⟩ => ⟨S256x256, .f32⟩
  | .hbm, ⟨16, _⟩ => ⟨S256x256, .bf16⟩
  | .hbm, ⟨17, _⟩ => ⟨S256x256, .f32⟩
  | .hbm, ⟨18, _⟩ => ⟨S256x256, .bf16⟩
  | .hbm, ⟨19, _⟩ => ⟨S256x256, .f32⟩
  | .hbm, ⟨20, _⟩ => ⟨S256x256, .bf16⟩
  | .hbm, ⟨21, _⟩ => ⟨S256x256, .f32⟩
  | .hbm, ⟨22, _⟩ => ⟨S256x256, .bf16⟩
  | .hbm, ⟨23, _⟩ => ⟨S256x256, .f32⟩
  | .hbm, ⟨24, _⟩ => ⟨S256x256, .bf16⟩
  | .hbm, ⟨25, _⟩ => ⟨S256x256, .f32⟩
  | .hbm, ⟨26, _⟩ => ⟨S256x256, .bf16⟩
  | .hbm, ⟨27, _⟩ => ⟨S256x3, .f32⟩
  | .hbm, ⟨28, _⟩ => ⟨S256x3, .bf16⟩
  | .hbm, ⟨29, _⟩ => ⟨S_, .i32⟩
  | .hbm, ⟨30, _⟩ => ⟨S_, .bf16⟩
  | .hbm, ⟨31, _⟩ => ⟨S256x128, .bf16⟩
  | .hbm, ⟨32, _⟩ => ⟨S131072x128, .f32⟩
  | .hbm, ⟨33, _⟩ => ⟨S131072x3, .f32⟩
  | .local _ .vmem, ⟨0, _⟩ => ⟨S8192x256, .bf16⟩
  | .local _ .vmem, ⟨1, _⟩ => ⟨S8192x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S8192x128, .f32⟩
  | .local _ .vmem, ⟨10, _⟩ => ⟨S8192x128, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S256x2_S2x256_1_0 : S256x2.Transposes [1, 0] S2x256
  bcast_S_S131072x256 : S_.BroadcastsInDim S131072x256 (![] : Fin 0 → Fin S131072x256.rank)
  bitsLt_bf16_f32 : FTy.bits .bf16 < FTy.bits .f32
  transposes_S256x256_S256x256_1_0 : S256x256.Transposes [1, 0] S256x256
  transposes_S3x256_S256x3_1_0 : S3x256.Transposes [1, 0] S256x3
  pads_S256x3_S256x128_000_01250 : S256x3.Pads (![0, 0] : Fin 2 → Nat) ![0, 125] ![0, 0] S256x128
  h_S_ : 0 < S_.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  slices_S131072x128_S131072x3_0_0 : S131072x128.Slices ![0, 0] S131072x3
  dot_S131072x2_S2x256_S131072x256_1_0_0_1_n_n_wf : DotDims.WF S131072x2 S2x256 S131072x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .bf16 = 32 ∨ (Rect.block (s := S131072x256) S8192x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x128.size a ≤ S131072x128.size a
  hwx0_8 : ∀ i : grid0.Coords, EltTy.bits .f32 = 32 ∨ (Rect.block (s := S131072x128) S8192x128.size (cc0_transform_8 i) (hinb0_8 i)).WholeWords (EltTy.packing .f32)

variable [Facts₀]

def dot_S131072x2_S2x256_S131072x256_1_0_0_1_n_n : DotDims S131072x2 S2x256 S131072x256 where
  lhsContracting := [1]
  rhsContracting := [0]
  lhsNonContracting := [0]
  rhsNonContracting := [1]
  lhsBatch := []
  rhsBatch := []
  wf := dot_S131072x2_S2x256_S131072x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_v3) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S8192x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x2 : Shape := ⟨2, ![131072, 2]⟩
abbrev S256x2 : Shape := ⟨2, ![256, 2]⟩
abbrev S256x256 : Shape := ⟨2, ![256, 256]⟩
abbrev S3x256 : Shape := ⟨2, ![3, 256]⟩
abbrev S2x256 : Shape := ⟨2, ![2, 256]⟩
abbrev S131072x256 : Shape := ⟨2, ![131072, 256]⟩
abbrev S_ : Shape := ⟨0, ![]⟩
abbrev S256x3 : Shape := ⟨2, ![256, 3]⟩
abbrev S131072x3 : Shape := ⟨2, ![131072, 3]⟩

abbrev nBuf : Space → Nat
  | .hbm => 54
  | .vmem => 0
  | .smem => 0
  | _ => 0

abbrev bufTy : (tb : Table) → Fin (tcTables nBuf tb) → BufTy
  | .hbm, ⟨0, _⟩ => ⟨S131072x2, .f32⟩
  | .hbm, ⟨1, _⟩ => ⟨S256x2, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S3x256, .f32⟩
  | .hbm, ⟨9, _⟩ => ⟨S2x256, .f32⟩
  | .hbm, ⟨10, _⟩ => ⟨S131072x256, .f32⟩
  | .hbm, ⟨11, _⟩ => ⟨S_, .f32⟩
  | .hbm, ⟨12, _⟩ => ⟨S131072x256, .f32⟩
  | .hbm, ⟨13, _⟩ => ⟨S131072x256, .f32⟩
  | .hbm, ⟨14, _⟩ => ⟨S256x256, .f32⟩
  | .hbm, ⟨15, _⟩ => ⟨S131072x256, .f32⟩
  | .hbm, ⟨16, _⟩ => ⟨S_, .f32⟩
  | .hbm, ⟨17, _⟩ => ⟨S131072x256, .f32⟩
  | .hbm, ⟨18, _⟩ => ⟨S131072x256, .f32⟩
  | .hbm, ⟨19, _⟩ => ⟨S256x256, .f32⟩
  | .hbm, ⟨20, _⟩ => ⟨S131072x256, .f32⟩
  | .hbm, ⟨21, _⟩ => ⟨S_, .f32⟩
  | .hbm, ⟨22, _⟩ => ⟨S131072x256, .f32⟩
  | .hbm, ⟨23, _⟩ => ⟨S131072x256, .f32⟩
  | .hbm, ⟨24, _⟩ => ⟨S256x256, .f32⟩
  | .hbm, ⟨25, _⟩ => ⟨S131072x256, .f32⟩
  | .hbm, ⟨26, _⟩ => ⟨S_, .f32⟩
  | .hbm, ⟨27, _⟩ => ⟨S131072x256, .f32⟩
  | .hbm, ⟨28, _⟩ => ⟨S131072x256, .f32⟩
  | .hbm, ⟨29, _⟩ => ⟨S256x256, .f32⟩
  | .hbm, ⟨30, _⟩ => ⟨S131072x256, .f32⟩
  | .hbm, ⟨31, _⟩ => ⟨S_, .f32⟩
  | .hbm, ⟨32, _⟩ => ⟨S131072x256, .f32⟩
  | .hbm, ⟨33, _⟩ => ⟨S131072x256, .f32⟩
  | .hbm, ⟨34, _⟩ => ⟨S256x256, .f32⟩
  | .hbm, ⟨35, _⟩ => ⟨S131072x256, .f32⟩
  | .hbm, ⟨36, _⟩ => ⟨S_, .f32⟩
  | .hbm, ⟨37, _⟩ => ⟨S131072x256, .f32⟩
  | .hbm, ⟨38, _⟩ => ⟨S131072x256, .f32⟩
  | .hbm, ⟨39, _⟩ => ⟨S256x256, .f32⟩
  | .hbm, ⟨40, _⟩ => ⟨S131072x256, .f32⟩
  | .hbm, ⟨41, _⟩ => ⟨S_, .f32⟩
  | .hbm, ⟨42, _⟩ => ⟨S131072x256, .f32⟩
  | .hbm, ⟨43, _⟩ => ⟨S131072x256, .f32⟩
  | .hbm, ⟨44, _⟩ => ⟨S256x3, .f32⟩
  | .hbm, ⟨45, _⟩ => ⟨S131072x3, .f32⟩
  | .hbm, ⟨46, _⟩ => ⟨S131072x3, .f32⟩
  | .hbm, ⟨47, _⟩ => ⟨S131072x3, .f32⟩
  | .hbm, ⟨48, _⟩ => ⟨S_, .f32⟩
  | .hbm, ⟨49, _⟩ => ⟨S131072x3, .f32⟩
  | .hbm, ⟨50, _⟩ => ⟨S131072x3, .f32⟩
  | .hbm, ⟨51, _⟩ => ⟨S_, .f32⟩
  | .hbm, ⟨52, _⟩ => ⟨S131072x3, .f32⟩
  | .hbm, ⟨53, _⟩ => ⟨S131072x3, .f32⟩
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_cst : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call2_cst : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call3_cst : Ref sig .tc := ⟨.hbm, 26, rfl⟩
abbrev main_call3_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call4_cst : Ref sig .tc := ⟨.hbm, 31, rfl⟩
abbrev main_call4_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call5_cst : Ref sig .tc := ⟨.hbm, 36, rfl⟩
abbrev main_call5_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call6_cst : Ref sig .tc := ⟨.hbm, 41, rfl⟩
abbrev main_call6_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_cst_0 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]

class Facts₀ : Prop where
  transposes_S256x2_S2x256_1_0 : S256x2.Transposes [1, 0] S2x256
  bcast_S_S131072x256 : S_.BroadcastsInDim S131072x256 (![] : Fin 0 → Fin S131072x256.rank)
  transposes_S256x256_S256x256_1_0 : S256x256.Transposes [1, 0] S256x256
  transposes_S3x256_S256x3_1_0 : S3x256.Transposes [1, 0] S256x3
  bcast_S_S131072x3 : S_.BroadcastsInDim S131072x3 (![] : Fin 0 → Fin S131072x3.rank)
  dot_S131072x2_S2x256_S131072x256_1_0_0_1_n_n_wf : DotDims.WF S131072x2 S2x256 S131072x256 [1] [0] [0] [1] [] []
  dot_S131072x256_S256x256_S131072x256_1_0_0_1_n_n_wf : DotDims.WF S131072x256 S256x256 S131072x256 [1] [0] [0] [1] [] []
  dot_S131072x256_S256x3_S131072x3_1_0_0_1_n_n_wf : DotDims.WF S131072x256 S256x3 S131072x3 [1] [0] [0] [1] [] []

variable [Facts₀]

def dot_S131072x2_S2x256_S131072x256_1_0_0_1_n_n : DotDims S131072x2 S2x256 S131072x256 where
  lhsContracting := [1]
  rhsContracting := [0]
  lhsNonContracting := [0]
  rhsNonContracting := [1]
  lhsBatch := []
  rhsBatch := []
  wf := dot_S131072x2_S2x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x3_S131072x3_1_0_0_1_n_n : DotDims S131072x256 S256x3 S131072x3 where
  lhsContracting := [1]
  rhsContracting := [0]
  lhsNonContracting := [0]
  rhsNonContracting := [1]
  lhsBatch := []
  rhsBatch := []
  wf := dot_S131072x256_S256x3_S131072x3_1_0_0_1_n_n_wf

class Facts : Prop extends Facts₀ where

variable [Facts]
-- ==== Proof.HostPrefix.lean ====
/-
  The arrays the kernel is launched on, as functions of the program's arguments.

  Before the launch the host forms the first hidden layer in full precision — the rows of x against the transposed
  first weight matrix, clipped at zero — and narrows it to bf16; transposes and narrows each of the other weight
  matrices; and pads the transposed last one, three columns wide, with zeros to 128 columns. Each of these arrays is
  read back here as the composed term of the operations that wrote it.
-/
import proofs.«104861_j19731079758266_2_alg».proof.Proof.Gen.KernelIdeal.Frame
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo

variable {F : FTy → Type} [FloatOps F] (m : (ℓ : Loc nD τ sig) → Buf (Elt F) ℓ)

/-- The first hidden layer as the host computes it, narrowed to bf16: operand 0 of the launch. -/
theorem V_v3 (c : Dev nD) : (V m c main_v3 : (⟨S131072x256, .bf16⟩ : BufTy).Contents (Elt F))
    = truncf .bf16 (maximumf (Host.dotGeneral dot_S131072x2_S2x256_S131072x256_1_0_0_1_n_n none (m ((c : Thread nD τ).loc main_arg0))
        (transpose S2x256 [1, 0] (m ((c : Thread nD τ).loc main_arg1)) transposes_S256x2_S2x256_1_0))
        (broadcastInDim S131072x256 ![] bcast_S_S131072x256 (constant S_ .f32 0x00000000#32))) bitsLt_bf16_f32 := by
  dsimp only [Gen.V, Gen.V0]
  simp only [Gen.hostOps0, Gen.hostOps0_1, Gen.hostOps0_2, Gen.hostOps0_3, List.flatten_cons, List.flatten_nil, List.append_nil,
    List.cons_append, List.nil_append]
  after_results <;> rfl

/-- Weight matrix 1, transposed to input × output and narrowed to bf16: operand 1 of the launch. -/
theorem V_v5 (c : Dev nD) : (V m c main_v5 : (⟨S256x256, .bf16⟩ : BufTy).Contents (Elt F))
    = truncf .bf16 (transpose S256x256 [1, 0] (m ((c : Thread nD τ).loc main_arg2)) transposes_S256x256_S256x256_1_0) bitsLt_bf16_f32 := by
  dsimp only [Gen.V, Gen.V0]
  simp only [Gen.hostOps0, Gen.hostOps0_1, Gen.hostOps0_2, Gen.hostOps0_3, List.flatten_cons, List.flatten_nil, List.append_nil,
    List.cons_append, List.nil_append]
  after_results <;> rfl

/-- Weight matrix 2, transposed to input × output and narrowed to bf16: operand 2 of the launch. -/
theorem V_v7 (c : Dev nD) : (V m c main_v7 : (⟨S256x256, .bf16⟩ : BufTy).Contents (Elt F))
    = truncf .bf16 (transpose S256x256 [1, 0] (m ((c : Thread nD τ).loc main_arg3)) transposes_S256x256_S256x256_1_0) bitsLt_bf16_f32 := by
  dsimp only [Gen.V, Gen.V0]
  simp only [Gen.hostOps0, Gen.hostOps0_1, Gen.hostOps0_2, Gen.hostOps0_3, List.flatten_cons, List.flatten_nil, List.append_nil,
    List.cons_append, List.nil_append]
  after_results <;> rfl

/-- Weight matrix 3, transposed to input × output and narrowed to bf16: operand 3 of the launch. -/
theorem V_v9 (c : Dev nD) : (V m c main_v9 : (⟨S256x256, .bf16⟩ : BufTy).Contents (Elt F))
    = truncf .bf16 (transpose S256x256 [1, 0] (m ((c : Thread nD τ).loc main_arg4)) transposes_S256x256_S256x256_1_0) bitsLt_bf16_f32 := by
  dsimp only [Gen.V, Gen.V0]
  simp only [Gen.hostOps0, Gen.hostOps0_1, Gen.hostOps0_2, Gen.hostOps0_3, List.flatten_cons, List.flatten_nil, List.append_nil,
    List.cons_append, List.nil_append]
  after_results <;> rfl

/-- Weight matrix 4, transposed to input × output and narrowed to bf16: operand 4 of the launch. -/
theorem V_v11 (c : Dev nD) : (V m c main_v11 : (⟨S256x256, .bf16⟩ : BufTy).Contents (Elt F))
    = truncf .bf16 (transpose S256x256 [1, 0] (m ((c : Thread nD τ).loc main_arg5)) transposes_S256x256_S256x256_1_0) bitsLt_bf16_f32 := by
  dsimp only [Gen.V, Gen.V0]
  simp only [Gen.hostOps0, Gen.hostOps0_1, Gen.hostOps0_2, Gen.hostOps0_3, List.flatten_cons, List.flatten_nil, List.append_nil,
    List.cons_append, List.nil_append]
  after_results <;> rfl

/-- Weight matrix 5, transposed to input × output and narrowed to bf16: operand 5 of the launch. -/
theorem V_v13 (c : Dev nD) : (V m c main_v13 : (⟨S256x256, .bf16⟩ : BufTy).Contents (Elt F))
    = truncf .bf16 (transpose S256x256 [1, 0] (m ((c : Thread nD τ).loc main_arg6)) transposes_S256x256_S256x256_1_0) bitsLt_bf16_f32 := by
  dsimp only [Gen.V, Gen.V0]
  simp only [Gen.hostOps0, Gen.hostOps0_1, Gen.hostOps0_2, Gen.hostOps0_3, List.flatten_cons, List.flatten_nil, List.append_nil,
    List.cons_append, List.nil_append]
  after_results <;> rfl

/-- Weight matrix 6, transposed to input × output and narrowed to bf16: operand 6 of the launch. -/
theorem V_v15 (c : Dev nD) : (V m c main_v15 : (⟨S256x256, .bf16⟩ : BufTy).Contents (Elt F))
    = truncf .bf16 (transpose S256x256 [1, 0] (m ((c : Thread nD τ).loc main_arg7)) transposes_S256x256_S256x256_1_0) bitsLt_bf16_f32 := by
  dsimp only [Gen.V, Gen.V0]
  simp only [Gen.hostOps0, Gen.hostOps0_1, Gen.hostOps0_2, Gen.hostOps0_3, List.flatten_cons, List.flatten_nil, List.append_nil,
    List.cons_append, List.nil_append]
  after_results <;> rfl

/-- The last weight matrix, transposed to 256 × 3, narrowed to bf16 and padded on the right with the converted integer
    zero to 256 × 128: operand 7 of the launch. -/
theorem V_v18 (c : Dev nD) : (V m c main_v18 : (⟨S256x128, .bf16⟩ : BufTy).Contents (Elt F))
    = pad S256x128 ![0, 0] ![0, 125] ![0, 0]
        (truncf .bf16 (transpose S256x3 [1, 0] (m ((c : Thread nD τ).loc main_arg8)) transposes_S3x256_S256x3_1_0) bitsLt_bf16_f32)
        (sitofp .bf16 (constantI S_ 32 0#32)) pads_S256x3_S256x128_000_01250 h_S_ := by
  dsimp only [Gen.V, Gen.V0]
  simp only [Gen.hostOps0, Gen.hostOps0_1, Gen.hostOps0_2, Gen.hostOps0_3, List.flatten_cons, List.flatten_nil, List.append_nil,
    List.cons_append, List.nil_append]
  after_results <;> rfl

end Cert.KernelIdeal.Prefix

end
-- ==== Proof.LibDenseLayers.lean ====
/-
  A bias-free perceptron on the extended reals, one layer at a time.

  A layer takes a matrix `h` of activations, one row per sample, and a weight matrix `w` already transposed to
  input × output, and forms the products of the rows of `h` with the columns of `w`: entry (p, q) of the product is
  the sum over c of h (p, c) · w (c, q), a finite sum on the extended reals with no rounding and no order left in it.
  A hidden layer clips the product below at zero; the last layer applies the logistic function 1 / (1 + e^(-x)).

  Three facts about these layers are all the mathematics that a comparison of a blocked evaluation with a whole one needs:
  * row p of the product depends on row p of `h` only, so a block of consecutive rows of a layer's result is the
    layer applied to that block of rows (`prod_rowBlock`, `hidden_rowBlock`, `outLayer_rowBlock`);
  * column q of the product depends on column q of `w` only, so columns added to `w` (a zero padding up to a full
    lane group) do not change the columns that were there (`prod_col`);
  * the matrix unit's product accumulated into a splat of zeros, and the host's product, are this product; the
    maximum with a splat of zero is the clip; and 1 / (1 + e^(-x)) spelt with the host's negate, exponential, add and
    divide is the logistic function (`matmulZero_eq_prod`, `hostDot_eq_prod`, `kernelHidden`, `hostHidden`,
    `kernelOut`, `hostOut`).
-/
import Idealize.ShloMosaic.Lib.StackMember
import Idealize.ShloMosaic.Lib.KernelVsHost
import Idealize.ShloMosaic.Lib.IdealHost

noncomputable section

namespace Cert.Mlp

open Idealize.ShloMosaic Idealize.ShloMosaic.ValueIdx

/-- The shape of an `a × b` matrix. -/
abbrev Mat (a b : Nat) : Shape := ⟨2, ![a, b]⟩

/-- Rows of `h` against columns of `w`: entry (p, q) is the sum over c of h (p, c) · w (c, q). -/
def prod {a k n : Nat} (h : (Mat a k).Idx → EReal) (w : (Mat k n).Idx → EReal) : (Mat a n).Idx → EReal :=
  fun i => ∑ c : Fin k, h (ix2 (i 0 : Fin a) c) * w (ix2 c (i 1 : Fin n))

/-- A hidden layer: the product clipped below at zero. -/
def hidden {a k n : Nat} (h : (Mat a k).Idx → EReal) (w : (Mat k n).Idx → EReal) : (Mat a n).Idx → EReal :=
  fun i => max (prod h w i) 0

/-- The last layer: the logistic function of the product. -/
def outLayer {a k n : Nat} (h : (Mat a k).Idx → EReal) (w : (Mat k n).Idx → EReal) : (Mat a n).Idx → EReal :=
  fun i => Ideal.logistic (prod h w i)

theorem prod_apply {a k n : Nat} (h : (Mat a k).Idx → EReal) (w : (Mat k n).Idx → EReal) (p : Fin a) (q : Fin n) :
    prod h w (ix2 p q) = ∑ c : Fin k, h (ix2 p c) * w (ix2 c q) := rfl

/-! ## Blocks of rows -/

/-- Rows `off, …, off + b − 1` of a matrix of `a` rows. -/
def rowBlock {α : Type} {a n : Nat} (b off : Nat) (hle : off + b ≤ a) (X : (Mat a n).Idx → α) : (Mat b n).Idx → α :=
  fun y => X (ix2 (⟨off + (y 0).val, by have := idx2_lt0 y; omega⟩ : Fin a) (y 1 : Fin n))

theorem rowBlock_apply {α : Type} {a n : Nat} (b off : Nat) (hle : off + b ≤ a) (X : (Mat a n).Idx → α)
    (p : Fin b) (q : Fin n) :
    rowBlock b off hle X (ix2 p q) = X (ix2 (⟨off + p.val, by have := p.isLt; omega⟩ : Fin a) q) := rfl

/-- An entry of a block of rows, named by its coordinates in the whole matrix. -/
theorem rowBlock_read {α : Type} {a n : Nat} (b off : Nat) (hle : off + b ≤ a) (X : (Mat a n).Idx → α)
    (y : (Mat b n).Idx) (i : (Mat a n).Idx) (h0 : (i 0).val = off + (y 0).val) (h1 : (i 1).val = (y 1).val) :
    rowBlock b off hle X y = X i := by
  unfold rowBlock
  refine congrArg X (funext fun d => Fin.ext ?_)
  match d with
  | ⟨0, _⟩ => exact h0.symm
  | ⟨1, _⟩ => exact h1.symm

/-- A block of rows of a product is the product of that block of rows. -/
theorem prod_rowBlock {a k n : Nat} (b off : Nat) (hle : off + b ≤ a) (h : (Mat a k).Idx → EReal)
    (w : (Mat k n).Idx → EReal) : prod (rowBlock b off hle h) w = rowBlock b off hle (prod h w) := rfl

theorem hidden_rowBlock {a k n : Nat} (b off : Nat) (hle : off + b ≤ a) (h : (Mat a k).Idx → EReal)
    (w : (Mat k n).Idx → EReal) : hidden (rowBlock b off hle h) w = rowBlock b off hle (hidden h w) := rfl

theorem outLayer_rowBlock {a k n : Nat} (b off : Nat) (hle : off + b ≤ a) (h : (Mat a k).Idx → EReal)
    (w : (Mat k n).Idx → EReal) : outLayer (rowBlock b off hle h) w = rowBlock b off hle (outLayer h w) := rfl

/-! ## Columns -/

/-- A column of the product depends on that column of the weights only. -/
theorem prod_col {a k n n' : Nat} (h : (Mat a k).Idx → EReal) (w : (Mat k n).Idx → EReal) (w' : (Mat k n').Idx → EReal)
    (q : Fin n) (q' : Fin n') (hw : ∀ c : Fin k, w' (ix2 c q') = w (ix2 c q)) (p : Fin a) :
    prod h w' (ix2 p q') = prod h w (ix2 p q) := by
  rw [prod_apply, prod_apply]
  exact Finset.sum_congr rfl fun c _ => by rw [hw c]

theorem outLayer_col {a k n n' : Nat} (h : (Mat a k).Idx → EReal) (w : (Mat k n).Idx → EReal) (w' : (Mat k n').Idx → EReal)
    (q : Fin n) (q' : Fin n') (hw : ∀ c : Fin k, w' (ix2 c q') = w (ix2 c q)) (p : Fin a) :
    outLayer h w' (ix2 p q') = outLayer h w (ix2 p q) :=
  congrArg Ideal.logistic (prod_col h w w' q q' hw p)

/-! ## The printed operations are these layers -/

/-- A change of float format changes no value. -/
theorem truncf_id {s : Shape} {φ ψ : FTy} (x : FVec Ideal s φ) (h : ψ.bits < φ.bits) :
    @Eq (s.Idx → EReal) (truncf ψ x h) x := rfl

/-- The host's product of an a×k by a k×n matrix. -/
theorem hostDot_eq_prod {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) :
    (Host.dotGeneral D prec H W : (Mat a n).Idx → EReal) = prod H W := by
  subst hD
  funext i
  obtain ⟨p, q, rfl⟩ : ∃ (p : Fin a) (q : Fin n), i = ix2 p q := ⟨i 0, i 1, eq_ix2 i⟩
  exact StackMember.dotGeneral_plain_apply prec H W p q

/-- The matrix unit's product accumulated into a splat of zeros: the accumulator contributes `0 + ·`. -/
theorem matmulZero_eq_prod {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) :
    (matmul D prec H W (constant (F := Ideal) (Mat a n) .f32 0x00000000#32) : (Mat a n).Idx → EReal) = prod H W := by
  rw [matmul_zero_eq_dotGeneral]
  exact hostDot_eq_prod D hD prec H W

/-- A host hidden layer: the maximum of the host's product with an array that is zero everywhere. -/
theorem hostHidden {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) (z : FVec Ideal (Mat a n) .f32) (hz : ∀ i, z i = 0) :
    (maximumf (Host.dotGeneral D prec H W) z : (Mat a n).Idx → EReal) = hidden H W := by
  funext i
  show max (Host.dotGeneral D prec H W i) (z i) = max (prod H W i) 0
  rw [hostDot_eq_prod D hD prec H W, hz]

/-- A kernel hidden layer: the matrix unit's product into zeros, the maximum with the splat of the zero word, and a
    narrowing of the format, which changes no value. -/
theorem kernelHidden {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) (hb : FTy.bits .bf16 < FTy.bits .f32) :
    (truncf .bf16 (maximumf (matmul D prec H W (constant (F := Ideal) (Mat a n) .f32 0x00000000#32))
        (broadcast (Mat a n) (Scalar.ofBits (F := Ideal) .f32 0x00000000#32))) hb : (Mat a n).Idx → EReal) = hidden H W := by
  funext i
  show max (matmul D prec H W (constant (F := Ideal) (Mat a n) .f32 0x00000000#32) i) (Ideal.ofBits .f32 0x00000000#32)
    = max (prod H W i) 0
  rw [matmulZero_eq_prod D hD prec H W, Ideal.ofBits_zero_f32]

/-- The kernel's last layer: the logistic function of the matrix unit's product into zeros. -/
theorem kernelOut {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) :
    (logistic (matmul D prec H W (constant (F := Ideal) (Mat a n) .f32 0x00000000#32)) : (Mat a n).Idx → EReal)
      = outLayer H W := by
  funext i
  show Ideal.logistic (matmul D prec H W (constant (F := Ideal) (Mat a n) .f32 0x00000000#32) i) = Ideal.logistic (prod H W i)
  rw [matmulZero_eq_prod D hD prec H W]

/-- The host's last layer: 1 / (1 + e^(-x)) spelt with negate, exponential, add and divide, the two ones arrays that
    are one everywhere. -/
theorem hostOut {a k n : Nat} {φ₁ φ₂ : FTy} (D : DotDims (Mat a k) (Mat k n) (Mat a n))
    (hD : D = DotDims.plain a k n) (prec : Option ContractPrecision)
    (H : FVec Ideal (Mat a k) φ₁) (W : FVec Ideal (Mat k n) φ₂) (one one' : FVec Ideal (Mat a n) .f32)
    (h1 : ∀ i, one i = 1) (h1' : ∀ i, one' i = 1) :
    (Host.divf one (addf one' (Host.exp (Host.negf (Host.dotGeneral D prec H W)))) : (Mat a n).Idx → EReal)
      = outLayer H W := by
  funext i
  show Ideal.div (one i) (one' i + Ideal.exp (-(Host.dotGeneral D prec H W i))) = Ideal.div 1 (1 + Ideal.exp (-(prod H W i)))
  rw [hostDot_eq_prod D hD prec H W, h1, h1']

end Cert.Mlp

end
-- ==== Proof.Body.lean ====
/-
  What one grid step of the kernel stores, as layers.

  The body loads a block of 8192 rows of the first hidden layer's activations and the seven resident weight matrices,
  applies six hidden layers — each the matrix unit's product into zeros, the maximum with zero, and a narrowing to
  bf16 — and stores the logistic function of the seventh product. At the ideal values the narrowings and the
  shape casts between equal shapes change nothing, so the stored block is `outLayer` of six nested `hidden`s.
-/
import proofs.«104861_j19731079758266_2_alg».proof.Proof.Gen.KernelIdeal.Skeleton
import proofs.«104861_j19731079758266_2_alg».proof.Proof.LibDenseLayers

noncomputable section

namespace Cert.KernelIdeal.Body

open Cert.KernelIdeal Cert.KernelIdeal.Gen Idealize.ShloMosaic Cert.Mlp

/-- The block the body stores, from the blocks it loads. -/
theorem stored_eq (x0 : Vec Ideal S8192x256 .bf16) (x1 x2 x3 x4 x5 x6 : Vec Ideal S256x256 .bf16) (x7 : Vec Ideal S256x128 .bf16) :
    (k0_pay1 (F := Ideal) (k0_pay2 x0 x1 x2 x3 x4 x5) (k0_pay3 x6) (constant S8192x256 .f32 0x00000000#32) x7
      : (Mat 8192 128).Idx → EReal)
    = outLayer (hidden (hidden (hidden (hidden (hidden (hidden x0 x1) x2) x3) x4) x5) x6) x7 := by
  unfold k0_pay1 k0_pay2 k0_pay3
  dsimp only
  simp only [shapeCast_self]
  rw [kernelOut dot_S8192x256_S256x128_S8192x128_1_0_0_1_n_n rfl]
  simp only [kernelHidden dot_S8192x256_S256x256_S8192x256_1_0_0_1_n_n rfl]

end Cert.KernelIdeal.Body

end
-- ==== Proof.Blocks.lean ====
/-
  The kernel's result array, from the blocks its sixteen grid steps write.

  Step `t` reads rows t·8192 … t·8192 + 8191 of the prepared activations and all of every weight matrix, and writes
  rows t·8192 … of the result. A row of a layer's result depends on that row of its input only, so what step `t` writes is
  rows t·8192 … of the seven layers applied to the WHOLE activation matrix; the sixteen blocks of rows tile the result,
  so the result array ends holding those seven layers of the whole matrix (`final`).
-/
import proofs.«104861_j19731079758266_2_alg».proof.Proof.Gen.KernelIdeal.Frame
import proofs.«104861_j19731079758266_2_alg».proof.Proof.LibDenseLayers
import proofs.«104861_j19731079758266_2_alg».proof.Proof.Body
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Mlp

variable (m : (ℓ : Loc nD τ sig) → Buf (Elt Ideal) ℓ)

theorem hz : (![0, 0] : Fin 2 → Nat) = fun _ => 0 := funext fun a => by fin_cases a <;> rfl

/-! ## The index maps over the grid -/

/-- Operand 0's block index at point `t` is (t, 0): the point's rows, every column. -/
theorem idx0 : ∀ t : Fin cfg0.N, win0_0.index t (0 : Fin 2) = t.val ∧ win0_0.index t (1 : Fin 2) = 0 :=
  (by decide +kernel : ∀ t : Fin grid0.N, _)
/-- Operand 1's block index is (0, 0) at every point: the whole matrix. -/
theorem idx1 : ∀ t : Fin cfg0.N, win0_1.index t (0 : Fin 2) = 0 ∧ win0_1.index t (1 : Fin 2) = 0 :=
  (by decide +kernel : ∀ t : Fin grid0.N, _)
/-- Operand 2's block index is (0, 0) at every point: the whole matrix. -/
theorem idx2 : ∀ t : Fin cfg0.N, win0_2.index t (0 : Fin 2) = 0 ∧ win0_2.index t (1 : Fin 2) = 0 :=
  (by decide +kernel : ∀ t : Fin grid0.N, _)
/-- Operand 3's block index is (0, 0) at every point: the whole matrix. -/
theorem idx3 : ∀ t : Fin cfg0.N, win0_3.index t (0 : Fin 2) = 0 ∧ win0_3.index t (1 : Fin 2) = 0 :=
  (by decide +kernel : ∀ t : Fin grid0.N, _)
/-- Operand 4's block index is (0, 0) at every point: the whole matrix. -/
theorem idx4 : ∀ t : Fin cfg0.N, win0_4.index t (0 : Fin 2) = 0 ∧ win0_4.index t (1 : Fin 2) = 0 :=
  (by decide +kernel : ∀ t : Fin grid0.N, _)
/-- Operand 5's block index is (0, 0) at every point: the whole matrix. -/
theorem idx5 : ∀ t : Fin cfg0.N, win0_5.index t (0 : Fin 2) = 0 ∧ win0_5.index t (1 : Fin 2) = 0 :=
  (by decide +kernel : ∀ t : Fin grid0.N, _)
/-- Operand 6's block index is (0, 0) at every point: the whole matrix. -/
theorem idx6 : ∀ t : Fin cfg0.N, win0_6.index t (0 : Fin 2) = 0 ∧ win0_6.index t (1 : Fin 2) = 0 :=
  (by decide +kernel : ∀ t : Fin grid0.N, _)
/-- Operand 7's block index is (0, 0) at every point: the whole matrix. -/
theorem idx7 : ∀ t : Fin cfg0.N, win0_7.index t (0 : Fin 2) = 0 ∧ win0_7.index t (1 : Fin 2) = 0 :=
  (by decide +kernel : ∀ t : Fin grid0.N, _)
/-- The result's block index at point `t` is (t, 0). -/
theorem idx8 : ∀ t : Fin cfg0.N, win0_8.index t (0 : Fin 2) = t.val ∧ win0_8.index t (1 : Fin 2) = 0 :=
  (by decide +kernel : ∀ t : Fin grid0.N, _)

theorem lt16 (t : Fin cfg0.N) : t.val < 16 := by
  have h := t.isLt
  have e : cfg0.N = 16 := N_0
  omega

/-- Sixteen blocks of 8192 rows fit the 131072 rows. -/
theorem off_le (t : Fin cfg0.N) : t.val * 8192 + 8192 ≤ 131072 := by
  have := lt16 t
  omega

/-! ## The blocks a step reads -/

/-- Operand 0's block at point `t` is rows t·8192 … t·8192 + 8191 of the activations the host prepared. -/
theorem blk0 (c : Dev nD) (t : Fin cfg0.N) :
    (iblk m c 0 t : S8192x256.Idx → EReal) = rowBlock 8192 (t.val * 8192) (off_le t) (V m c main_v3 : S131072x256.Idx → EReal) := by
  obtain ⟨e0, e1⟩ := idx0 t
  funext j
  refine Eq.trans ?_ (rowBlock_read 8192 (t.val * 8192) (off_le t) (V m c main_v3 : S131072x256.Idx → EReal) j
    (((cfg0.win 0).blk t).view.emb j) ?_ ?_).symm
  · rfl
  · show win0_0.index t (0 : Fin 2) * 8192 + 1 * (j 0).val = t.val * 8192 + (j 0).val; omega
  · show win0_0.index t (1 : Fin 2) * 256 + 1 * (j 1).val = (j 1).val; omega

/-- Operand 1's block at every point is the whole weight matrix. -/
theorem blk1 (c : Dev nD) (t : Fin cfg0.N) :
    (iblk m c 1 t : S256x256.Idx → EReal) = (V m c main_v5 : S256x256.Idx → EReal) := by
  obtain ⟨e0, e1⟩ := idx1 t
  funext j
  show V m c main_v5 (((cfg0.win 1).blk t).view.emb j) = V m c main_v5 j
  refine congrArg (V m c main_v5 : S256x256.Idx → EReal) (funext fun a => Fin.ext ?_)
  match a with
  | ⟨0, _⟩ => show win0_1.index t (0 : Fin 2) * 256 + 1 * (j 0).val = (j 0).val; omega
  | ⟨1, _⟩ => show win0_1.index t (1 : Fin 2) * 256 + 1 * (j 1).val = (j 1).val; omega

/-- Operand 2's block at every point is the whole weight matrix. -/
theorem blk2 (c : Dev nD) (t : Fin cfg0.N) :
    (iblk m c 2 t : S256x256.Idx → EReal) = (V m c main_v7 : S256x256.Idx → EReal) := by
  obtain ⟨e0, e1⟩ := idx2 t
  funext j
  show V m c main_v7 (((cfg0.win 2).blk t).view.emb j) = V m c main_v7 j
  refine congrArg (V m c main_v7 : S256x256.Idx → EReal) (funext fun a => Fin.ext ?_)
  match a with
  | ⟨0, _⟩ => show win0_2.index t (0 : Fin 2) * 256 + 1 * (j 0).val = (j 0).val; omega
  | ⟨1, _⟩ => show win0_2.index t (1 : Fin 2) * 256 + 1 * (j 1).val = (j 1).val; omega

/-- Operand 3's block at every point is the whole weight matrix. -/
theorem blk3 (c : Dev nD) (t : Fin cfg0.N) :
    (iblk m c 3 t : S256x256.Idx → EReal) = (V m c main_v9 : S256x256.Idx → EReal) := by
  obtain ⟨e0, e1⟩ := idx3 t
  funext j
  show V m c main_v9 (((cfg0.win 3).blk t).view.emb j) = V m c main_v9 j
  refine congrArg (V m c main_v9 : S256x256.Idx → EReal) (funext fun a => Fin.ext ?_)
  match a with
  | ⟨0, _⟩ => show win0_3.index t (0 : Fin 2) * 256 + 1 * (j 0).val = (j 0).val; omega
  | ⟨1, _⟩ => show win0_3.index t (1 : Fin 2) * 256 + 1 * (j 1).val = (j 1).val; omega

/-- Operand 4's block at every point is the whole weight matrix. -/
theorem blk4 (c : Dev nD) (t : Fin cfg0.N) :
    (iblk m c 4 t : S256x256.Idx → EReal) = (V m c main_v11 : S256x256.Idx → EReal) := by
  obtain ⟨e0, e1⟩ := idx4 t
  funext j
  show V m c main_v11 (((cfg0.win 4).blk t).view.emb j) = V m c main_v11 j
  refine congrArg (V m c main_v11 : S256x256.Idx → EReal) (funext fun a => Fin.ext ?_)
  match a with
  | ⟨0, _⟩ => show win0_4.index t (0 : Fin 2) * 256 + 1 * (j 0).val = (j 0).val; omega
  | ⟨1, _⟩ => show win0_4.index t (1 : Fin 2) * 256 + 1 * (j 1).val = (j 1).val; omega

/-- Operand 5's block at every point is the whole weight matrix. -/
theorem blk5 (c : Dev nD) (t : Fin cfg0.N) :
    (iblk m c 5 t : S256x256.Idx → EReal) = (V m c main_v13 : S256x256.Idx → EReal) := by
  obtain ⟨e0, e1⟩ := idx5 t
  funext j
  show V m c main_v13 (((cfg0.win 5).blk t).view.emb j) = V m c main_v13 j
  refine congrArg (V m c main_v13 : S256x256.Idx → EReal) (funext fun a => Fin.ext ?_)
  match a with
  | ⟨0, _⟩ => show win0_5.index t (0 : Fin 2) * 256 + 1 * (j 0).val = (j 0).val; omega
  | ⟨1, _⟩ => show win0_5.index t (1 : Fin 2) * 256 + 1 * (j 1).val = (j 1).val; omega

/-- Operand 6's block at every point is the whole weight matrix. -/
theorem blk6 (c : Dev nD) (t : Fin cfg0.N) :
    (iblk m c 6 t : S256x256.Idx → EReal) = (V m c main_v15 : S256x256.Idx → EReal) := by
  obtain ⟨e0, e1⟩ := idx6 t
  funext j
  show V m c main_v15 (((cfg0.win 6).blk t).view.emb j) = V m c main_v15 j
  refine congrArg (V m c main_v15 : S256x256.Idx → EReal) (funext fun a => Fin.ext ?_)
  match a with
  | ⟨0, _⟩ => show win0_6.index t (0 : Fin 2) * 256 + 1 * (j 0).val = (j 0).val; omega
  | ⟨1, _⟩ => show win0_6.index t (1 : Fin 2) * 256 + 1 * (j 1).val = (j 1).val; omega

/-- Operand 7's block at every point is the whole padded last weight matrix. -/
theorem blk7 (c : Dev nD) (t : Fin cfg0.N) :
    (iblk m c 7 t : S256x128.Idx → EReal) = (V m c main_v18 : S256x128.Idx → EReal) := by
  obtain ⟨e0, e1⟩ := idx7 t
  funext j
  show V m c main_v18 (((cfg0.win 7).blk t).view.emb j) = V m c main_v18 j
  refine congrArg (V m c main_v18 : S256x128.Idx → EReal) (funext fun a => Fin.ext ?_)
  match a with
  | ⟨0, _⟩ => show win0_7.index t (0 : Fin 2) * 256 + 1 * (j 0).val = (j 0).val; omega
  | ⟨1, _⟩ => show win0_7.index t (1 : Fin 2) * 128 + 1 * (j 1).val = (j 1).val; omega

/-! ## The result array -/

/-- The activations after the six hidden layers the kernel applies, over all 131072 rows. -/
def acts (c : Dev nD) : (Mat 131072 256).Idx → EReal :=
  hidden (hidden (hidden (hidden (hidden (hidden (V m c main_v3 : S131072x256.Idx → EReal) (V m c main_v5 : S256x256.Idx → EReal))
    (V m c main_v7 : S256x256.Idx → EReal)) (V m c main_v9 : S256x256.Idx → EReal)) (V m c main_v11 : S256x256.Idx → EReal))
    (V m c main_v13 : S256x256.Idx → EReal)) (V m c main_v15 : S256x256.Idx → EReal)

/-- The padded result: the last layer against the padded last weight matrix, 128 columns wide. -/
def padded (c : Dev nD) : (Mat 131072 128).Idx → EReal := outLayer (acts m c) (V m c main_v18 : S256x128.Idx → EReal)

/-- What step `t` writes back is rows t·8192 … of `padded`. -/
theorem flushed_eq (c : Dev nD) (t : Fin cfg0.N) :
    (dats m 0 c).flushed 8 t = ((cfg0.win 8).blk t).view.read (Elt Ideal) (padded m c) := by
  show (cfg0.win 8).cut (grid0.coords t) ((dats m 0 c).after 8 t) = _
  rw [after0_8]
  unfold out0_8
  rw [View.canon_unit_zero hz]
  simp only [View.ld_unit_zero (S := S8192x256) hz, View.ld_unit_zero (S := S256x256) hz, View.ld_unit_zero (S := S256x128) hz]
  obtain ⟨e0, e1⟩ := idx8 t
  funext j
  show k0_pay1 (k0_pay2 (iblk m c 0 t) (iblk m c 1 t) (iblk m c 2 t) (iblk m c 3 t) (iblk m c 4 t) (iblk m c 5 t))
      (k0_pay3 (iblk m c 6 t)) (constant S8192x256 .f32 0x00000000#32) (iblk m c 7 t) j
    = padded m c (((cfg0.win 8).blk t).view.emb j)
  rw [Body.stored_eq (iblk m c 0 t) (iblk m c 1 t) (iblk m c 2 t) (iblk m c 3 t) (iblk m c 4 t) (iblk m c 5 t) (iblk m c 6 t) (iblk m c 7 t)]
  rw [blk0 m c t, blk1 m c t, blk2 m c t, blk3 m c t, blk4 m c t, blk5 m c t, blk6 m c t, blk7 m c t]
  rw [hidden_rowBlock, hidden_rowBlock, hidden_rowBlock, hidden_rowBlock, hidden_rowBlock, hidden_rowBlock, outLayer_rowBlock]
  refine rowBlock_read 8192 (t.val * 8192) (off_le t) _ j (((cfg0.win 8).blk t).view.emb j) ?_ ?_
  · show win0_8.index t (0 : Fin 2) * 8192 + 1 * (j 0).val = t.val * 8192 + (j 0).val; omega
  · show win0_8.index t (1 : Fin 2) * 128 + 1 * (j 1).val = (j 1).val; omega

/-- An index of the result array is in step `t`'s block iff each coordinate is in the block's range. -/
theorem mem_blk8 (t : Fin cfg0.N) (i : S131072x128.Idx) :
    i ∈ ((cfg0.win 8).blk t).view.set ↔ ∀ a : Fin 2, win0_8.index t a * S8192x128.size a ≤ (i a).val
      ∧ (i a).val < win0_8.index t a * S8192x128.size a + S8192x128.size a := by
  show i ∈ ((View.whole main_v19).slice (win0_8.rect t)).set ↔ _
  rw [View.set_slice_whole, Rect.mem_set_unit]
  exact Iff.rfl

/-- Row r of the result is in the block of step r / 8192: the blocks tile the array, which so ends holding `padded`. -/
theorem final (c : Dev nD) : (dats m 0 c).arrAt 8 cfg0.N = padded m c :=
  (dats m 0 c).arrAt_eq_of_cover 8 (padded m c) (fun t _ => flushed_eq m c t) fun i => by
    have hi0 : (i 0).val < 131072 := (i 0).isLt
    have hi1 : (i 1).val < 128 := (i 1).isLt
    have hN : cfg0.N = 16 := N_0
    obtain ⟨t, ht⟩ : ∃ t : Fin cfg0.N, t.val = (i 0).val / 8192 := ⟨⟨(i 0).val / 8192, by omega⟩, rfl⟩
    obtain ⟨e0, e1⟩ := idx8 t
    refine ⟨t, flush0_8 t, ?_⟩
    rw [mem_blk8]
    intro a
    match a with
    | ⟨0, _⟩ =>
      show win0_8.index t (0 : Fin 2) * 8192 ≤ (i 0).val ∧ (i 0).val < win0_8.index t (0 : Fin 2) * 8192 + 8192
      omega
    | ⟨1, _⟩ =>
      show win0_8.index t (1 : Fin 2) * 128 ≤ (i 1).val ∧ (i 1).val < win0_8.index t (1 : Fin 2) * 128 + 128
      omega

end Cert.KernelIdeal.Blocks

end
-- ==== Proof.Spec.lean ====
/-
  The network both programs compute: eight bias-free linear layers, the first seven clipped below at zero, the last
  followed by the logistic function. Each weight matrix is given output × input and enters its layer transposed.
-/
import proofs.«104861_j19731079758266_2_alg».proof.Proof.LibDenseLayers

noncomputable section

namespace Cert.Mlp

open Idealize.ShloMosaic

/-- sigmoid(relu(… relu(relu(x · W0ᵀ) · W1ᵀ) …) · W7ᵀ), entry by entry on the extended reals. -/
def mlp (x : (Mat 131072 2).Idx → EReal) (W0 : (Mat 256 2).Idx → EReal) (W1 W2 W3 W4 W5 W6 : (Mat 256 256).Idx → EReal)
    (W7 : (Mat 3 256).Idx → EReal) : (Mat 131072 3).Idx → EReal :=
  outLayer (hidden (hidden (hidden (hidden (hidden (hidden (hidden x
    (transpose (Mat 2 256) [1, 0] W0)) (transpose (Mat 256 256) [1, 0] W1)) (transpose (Mat 256 256) [1, 0] W2))
    (transpose (Mat 256 256) [1, 0] W3)) (transpose (Mat 256 256) [1, 0] W4)) (transpose (Mat 256 256) [1, 0] W5))
    (transpose (Mat 256 256) [1, 0] W6)) (transpose (Mat 256 3) [1, 0] W7)

end Cert.Mlp

end
-- ==== Proof.KernelValue.lean ====
/-
  The kernel program's result is the network.

  The kernel's launch leaves its result array at the seven layers it applies, over all rows, against the arrays the host
  prepared (`Blocks.final`); the host then keeps the first three of the 128 columns. The prepared activations are the
  first hidden layer; the prepared weights are the transposed weight matrices, a change of format apart; and the last
  one's zero padding adds columns 3 … 127, which the final slice drops again: a column of a product depends on that
  column of the weights only.
-/
import proofs.«104861_j19731079758266_2_alg».proof.Proof.Gen.KernelIdeal.Frame
import proofs.«104861_j19731079758266_2_alg».proof.Proof.HostPrefix
import proofs.«104861_j19731079758266_2_alg».proof.Proof.Blocks
import proofs.«104861_j19731079758266_2_alg».proof.Proof.Spec
import Idealize.ShloMosaic.Lib.Pipeline.Value
import Idealize.ShloMosaic.Lib.KernelVsHost
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.Mlp Cert.KernelIdeal.Blocks

variable (m : (ℓ : Loc nD τ sig) → Buf (Elt Ideal) ℓ) (ρ : Dev nD → PrngReg)

/-- The zero the host clips the first layer at, broadcast to the activations' shape. -/
abbrev zeros : FVec Ideal S131072x256 .f32 :=
  broadcastInDim S131072x256 ![] bcast_S_S131072x256 (constant (F := Ideal) S_ .f32 0x00000000#32)

theorem zeros_apply (i : S131072x256.Idx) : zeros i = 0 := Ideal.ofBits_zero_f32

/-- The activations after the kernel's six hidden layers are seven hidden layers of the arguments. -/
theorem acts_eq (c : Dev nD) : acts m c
    = hidden (hidden (hidden (hidden (hidden (hidden (hidden (m ((c : Thread nD τ).loc main_arg0))
        (transpose S2x256 [1, 0] (m ((c : Thread nD τ).loc main_arg1)) transposes_S256x2_S2x256_1_0))
        (transpose S256x256 [1, 0] (m ((c : Thread nD τ).loc main_arg2)) transposes_S256x256_S256x256_1_0))
        (transpose S256x256 [1, 0] (m ((c : Thread nD τ).loc main_arg3)) transposes_S256x256_S256x256_1_0))
        (transpose S256x256 [1, 0] (m ((c : Thread nD τ).loc main_arg4)) transposes_S256x256_S256x256_1_0))
        (transpose S256x256 [1, 0] (m ((c : Thread nD τ).loc main_arg5)) transposes_S256x256_S256x256_1_0))
        (transpose S256x256 [1, 0] (m ((c : Thread nD τ).loc main_arg6)) transposes_S256x256_S256x256_1_0))
        (transpose S256x256 [1, 0] (m ((c : Thread nD τ).loc main_arg7)) transposes_S256x256_S256x256_1_0) := by
  unfold acts
  rw [Prefix.V_v3 m c, Prefix.V_v5 m c, Prefix.V_v7 m c, Prefix.V_v9 m c, Prefix.V_v11 m c, Prefix.V_v13 m c, Prefix.V_v15 m c]
  simp only [truncf_id]
  rw [hostHidden dot_S131072x2_S2x256_S131072x256_1_0_0_1_n_n rfl none _ _ zeros zeros_apply]

/-- The first three columns of the padded result are the network of the arguments. -/
theorem result_eq (c : Dev nD) :
    (extractStridedSlice S131072x3 ![0, 0] (padded m c) slices_S131072x128_S131072x3_0_0 : (Mat 131072 3).Idx → EReal)
    = mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨p, q, rfl⟩ : ∃ (p : Fin 131072) (q : Fin 3), i = ix2 p q := ⟨i 0, i 1, eq_ix2 i⟩
  have hq : q.val < 128 := by have := q.isLt; omega
  rw [extractStridedSlice_apply ![0, 0] (padded m c) slices_S131072x128_S131072x3_0_0 (ix2 p q) (ix2 p (⟨q.val, hq⟩ : Fin 128))
    (fun a => by
      match a with
      | ⟨0, _⟩ => show p.val = 0 + p.val; omega
      | ⟨1, _⟩ => show q.val = 0 + q.val; omega)]
  unfold padded mlp
  rw [acts_eq]
  refine outLayer_col _ (transpose S256x3 [1, 0] (m ((c : Thread nD τ).loc main_arg8)) transposes_S3x256_S256x3_1_0)
    (V m c main_v18 : S256x128.Idx → EReal) q (⟨q.val, hq⟩ : Fin 128) (fun cc => ?_) p
  rw [Prefix.V_v18 m c]
  exact pad_apply_of_inside ![0, 0] ![0, 125] ![0, 0] _ _ pads_S256x3_S256x128_000_01250 h_S_ (ix2 cc (⟨q.val, hq⟩ : Fin 128)) (ix2 cc q)
    (fun a => by
      match a with
      | ⟨0, _⟩ => show cc.val = 0 + cc.val * (0 + 1); omega
      | ⟨1, _⟩ => show q.val = 0 + q.val * (0 + 1); omega)

/-- The host's line after the launch: the program's result is the first three columns of the launch's result array. -/
theorem tail_v20 (c : Dev nD) : Pipeline.afterTail₀ cfgs (dats m) 0 (V0 m) [hostOps1] c main_v20
    = extractStridedSlice S131072x3 ![0, 0] (padded m c) slices_S131072x128_S131072x3_0_0 := by
  unfold Pipeline.afterTail₀
  show StableHlo.after hostOps1 _ (Proc.devRef .tc main_v20) = _
  after_results
  refine congrArg (fun X : S131072x128.Idx → EReal => extractStridedSlice S131072x3 ![0, 0] X slices_S131072x128_S131072x3_0_0) ?_
  exact (Pipeline.withArrays_arr spec0 launch0.win.arr_inj c _ _ 8).trans (final m c)

/-- Every weakly fair execution of the kernel program ends, without a fault, with its result at the network of its
    arguments and its arguments unchanged. -/
theorem run : θ_run defs (onTc (τ := τ) (main (F := Ideal))) ⟨m, fun _ => 0, ρ⟩ fun r => ∀ c : Dev nD,
      r.2.mem ((c.tc : Thread nD τ).loc main_v20) = mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v20 (Pipeline.mem_restRefs_of main_v20 (by decide) (by decide))).trans ((tail_v20 m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Result

end
-- ==== Proof.RefValue.lean ====
/-
  The reference's result is the network.

  The reference's program is eight host products, each against a transposed weight matrix; after each of the first
  seven, a maximum with a broadcast zero; after the last, 1 / (1 + e^(-x)) spelt with negate, exponential, add and divide
  against two broadcast ones. Read operation by operation these are seven hidden layers and the logistic layer.
-/
import proofs.«104861_j19731079758266_2_alg».proof.Proof.Gen.ReferenceIdeal.Run
import proofs.«104861_j19731079758266_2_alg».proof.Proof.Spec

noncomputable section

namespace Cert.ReferenceIdeal.RefValue

open Cert.ReferenceIdeal Cert.ReferenceIdeal.Gen Idealize.ShloMosaic Cert.Mlp

/-- The zero the hidden layers are clipped at, broadcast to the activations' shape. -/
abbrev zeros : FVec Ideal S131072x256 .f32 :=
  broadcastInDim S131072x256 ![] bcast_S_S131072x256 (constant (F := Ideal) S_ .f32 0x00000000#32)

theorem zeros_apply (i : S131072x256.Idx) : zeros i = 0 := Ideal.ofBits_zero_f32

/-- The one of the logistic function's numerator and denominator, broadcast to the result's shape. -/
abbrev ones : FVec Ideal S131072x3 .f32 :=
  broadcastInDim S131072x3 ![] bcast_S_S131072x3 (constant (F := Ideal) S_ .f32 0x3F800000#32)

theorem ones_apply (i : S131072x3.Idx) : ones i = 1 := Ideal.ofBits_one_f32

/-- The term the reference's run ends at is the network of its arguments. -/
theorem result_eq (x0 : FVec Ideal S131072x2 .f32) (x1 : FVec Ideal S256x2 .f32) (x2 x3 x4 x5 x6 x7 : FVec Ideal S256x256 .f32)
    (x8 : FVec Ideal S3x256 .f32) :
    (Host.divf ones (addf ones (Host.exp (Host.negf (Host.dotGeneral dot_S131072x256_S256x3_S131072x3_1_0_0_1_n_n none
      (maximumf (Host.dotGeneral dot_S131072x256_S256x256_S131072x256_1_0_0_1_n_n none
      (maximumf (Host.dotGeneral dot_S131072x256_S256x256_S131072x256_1_0_0_1_n_n none
      (maximumf (Host.dotGeneral dot_S131072x256_S256x256_S131072x256_1_0_0_1_n_n none
      (maximumf (Host.dotGeneral dot_S131072x256_S256x256_S131072x256_1_0_0_1_n_n none
      (maximumf (Host.dotGeneral dot_S131072x256_S256x256_S131072x256_1_0_0_1_n_n none
      (maximumf (Host.dotGeneral dot_S131072x256_S256x256_S131072x256_1_0_0_1_n_n none
      (maximumf (Host.dotGeneral dot_S131072x2_S2x256_S131072x256_1_0_0_1_n_n none x0
        (transpose S2x256 [1, 0] x1 transposes_S256x2_S2x256_1_0)) zeros)
        (transpose S256x256 [1, 0] x2 transposes_S256x256_S256x256_1_0)) zeros)
        (transpose S256x256 [1, 0] x3 transposes_S256x256_S256x256_1_0)) zeros)
        (transpose S256x256 [1, 0] x4 transposes_S256x256_S256x256_1_0)) zeros)
        (transpose S256x256 [1, 0] x5 transposes_S256x256_S256x256_1_0)) zeros)
        (transpose S256x256 [1, 0] x6 transposes_S256x256_S256x256_1_0)) zeros)
        (transpose S256x256 [1, 0] x7 transposes_S256x256_S256x256_1_0)) zeros)
        (transpose S256x3 [1, 0] x8 transposes_S3x256_S256x3_1_0))))) : (Mat 131072 3).Idx → EReal)
    = mlp x0 x1 x2 x3 x4 x5 x6 x7 x8 := by
  rw [hostOut dot_S131072x256_S256x3_S131072x3_1_0_0_1_n_n rfl none _ _ ones ones ones_apply ones_apply]
  simp only [hostHidden dot_S131072x256_S256x256_S131072x256_1_0_0_1_n_n rfl none _ _ zeros zeros_apply,
    hostHidden dot_S131072x2_S2x256_S131072x256_1_0_0_1_n_n rfl none _ _ zeros zeros_apply]
  rfl

end Cert.ReferenceIdeal.RefValue

end
-- ==== Proof.lean ====
/-
  An eight-layer bias-free perceptron, evaluated in row blocks on the matrix unit, against the same perceptron evaluated
  whole on the host: sigmoid(relu(… relu(x · W0ᵀ) · W1ᵀ …) · W7ᵀ) over 131072 samples.

  The kernel program forms the first hidden layer on the host, narrows it and the transposed weights to bf16, pads the
  last transposed weight matrix from 3 to 128 columns with zeros, runs layers 1 … 7 on sixteen blocks of 8192 rows, and
  keeps the first three columns of the result. The reference applies the eight layers to all rows at once. On the
  extended reals the two agree entry by entry, for every input, by three observations and no law of real arithmetic
  beyond 0 + x = x:
  * a change of float format changes no value, the matrix unit's product into a zero accumulator is the host's product,
    and 1 / (1 + e^(-x)) is the logistic function (Proof/LibDenseLayers.lean);
  * row p of a layer's result depends on row p of its input only, so the blocks the grid steps write are the blocks of
    the layers applied to the whole activation matrix, and they tile the result (Proof/Blocks.lean);
  * column q of a product depends on column q of the weights only, so the padding columns do not touch the three columns
    that are kept (Proof/KernelValue.lean).
  The precondition (finite inputs) is not used: no step needs it. The frames of the two kernel programs are the generated
  ones; the reference's frame is its run with the result dropped; the idealization rewrote nothing, so it is preserved
  trivially.
-/
import proofs.«104861_j19731079758266_2_alg».proof.Defs
import proofs.«104861_j19731079758266_2_alg».proof.Proof.Gen.Kernel
import proofs.«104861_j19731079758266_2_alg».proof.Proof.Gen.Kernel.Frame
import proofs.«104861_j19731079758266_2_alg».proof.Proof.Gen.KernelIdeal
import proofs.«104861_j19731079758266_2_alg».proof.Proof.Gen.KernelIdeal.Frame
import proofs.«104861_j19731079758266_2_alg».proof.Proof.Gen.ReferenceIdeal
import proofs.«104861_j19731079758266_2_alg».proof.Proof.Gen.ReferenceIdeal.Run
import proofs.«104861_j19731079758266_2_alg».proof.Proof.Gen.Pre_finite_inputs
import proofs.«104861_j19731079758266_2_alg».proof.Proof.KernelValue
import proofs.«104861_j19731079758266_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result's equation dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at the network of the arguments, and the arguments agree. -/
theorem algebraic : Cert.algebraic_KernelIdeal_ReferenceIdeal := by
  intro m ρ m' ρ' _ hagree
  refine ⟨fun c => Cert.Mlp.mlp
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact Cert.ReferenceIdeal.RefValue.result_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
